-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S16 : Shape := ⟨1, ![16]⟩
abbrev S16x256x256 : Shape := ⟨3, ![16, 256, 256]⟩
abbrev S16x1x256 : Shape := ⟨3, ![16, 1, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S16x1x256 : S_.BroadcastsInDim S16x1x256 (![] : Fin 0 → Fin S16x1x256.rank)
  reducesTo_S16x1x256_S_d0_1_2 : S16x1x256.ReducesTo [0, 1, 2] S_

variable [Facts]

def fn {F : FTy → Type} [FloatOps F] (main_arg0 : FVec F S131072x256 .f32) (main_arg1 : IVec S16 32) (main_arg2 : FVec F S16x256x256 .f32) (main_arg3 : FVec F S16x1x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S16x256x256 .f32 := Host.absf main_arg2
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x1x256 .f32 := Host.absf main_arg3
  let main_cst_2 : FVec F S_ .f32 := constant S_ .f32 0x7F800000#32
  let main_v10 : FVec F S16x1x256 .f32 := broadcastInDim S16x1x256 ![] bcast_S_S16x1x256 main_cst_2
  let main_v11 : IVec S16x1x256 1 := cmpf .olt main_v9 main_v10
  let main_c_3 : IVec S_ 1 := constantI S_ 1 1#1
  let main_v12 : IVec S_ 1 := (fun x v => Host.reduce IntOp.andi x v reducesTo_S16x1x256_S_d0_1_2 h_S_) main_v11 main_c_3
  let main_v13 : IVec S_ 1 := andi main_v8 main_v12
  main_v13
-- ==== Kernel.lean ====
abbrev S131072x256 : Shape := ⟨2, ![131072, 256]⟩
abbrev S16 : Shape := ⟨1, ![16]⟩
abbrev S16x256x256 : Shape := ⟨3, ![16, 256, 256]⟩
abbrev S16x1x256 : Shape := ⟨3, ![16, 1, 256]⟩
abbrev S16x8192x256 : Shape := ⟨3, ![16, 8192, 256]⟩
abbrev S1x4096x256 : Shape := ⟨3, ![1, 4096, 256]⟩
abbrev S1x256x256 : Shape := ⟨3, ![1, 256, 256]⟩
abbrev S1x1x256 : Shape := ⟨3, ![1, 1, 256]⟩
abbrev S4096x256 : Shape := ⟨2, ![4096, 256]⟩
abbrev S256x256 : Shape := ⟨2, ![256, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S16, .i32⟩
  | .hbm, ⟨2, _⟩ => ⟨S16x256x256, .f32⟩
  | .hbm, ⟨3, _⟩ => ⟨S16x1x256, .f32⟩
  | .hbm, ⟨4, _⟩ => ⟨S16x8192x256, .f32⟩
  | .hbm, ⟨5, _⟩ => ⟨S16x256x256, .bf16⟩
  | .hbm, ⟨6, _⟩ => ⟨S16x8192x256, .f32⟩
  | .hbm, ⟨7, _⟩ => ⟨S131072x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256x256, .bf16⟩
  | .local _ .vmem, ⟨3, _⟩ => ⟨S1x256x256, .bf16⟩
  | .local _ .vmem, ⟨4, _⟩ => ⟨S1x1x256, .f32⟩
  | .local _ .vmem, ⟨5, _⟩ => ⟨S1x1x256, .f32⟩
  | .local _ .vmem, ⟨6, _⟩ => ⟨S1x4096x256, .f32⟩
  | .local _ .vmem, ⟨7, _⟩ => ⟨S1x4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S131072x256_S16x8192x256 : S131072x256.ShapeCasts S16x8192x256
  bitsLt_bf16_f32 : FTy.bits .bf16 < FTy.bits .f32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  shapeCasts_S4096x256_S1x4096x256 : S4096x256.ShapeCasts S1x4096x256
  shapeCasts_S16x8192x256_S131072x256 : S16x8192x256.ShapeCasts S131072x256
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x8192x256.size a
  hwx0_0 : ∀ i : grid0.Coords, EltTy.bits .f32 = 32 ∨ (Rect.block (s := S16x8192x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .bf16 = 32 ∨ (Rect.block (s := S16x256x256) S1x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x256.size a ≤ S16x8192x256.size a
  hwx0_3 : ∀ i : grid0.Coords, EltTy.bits .f32 = 32 ∨ (Rect.block (s := S16x8192x256) S1x4096x256.size (cc0_transform_3 i) (hinb0_3 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S16 : Shape := ⟨1, ![16]⟩
abbrev S16x256x256 : Shape := ⟨3, ![16, 256, 256]⟩
abbrev S16x1x256 : Shape := ⟨3, ![16, 1, 256]⟩
abbrev S16x8192x256 : Shape := ⟨3, ![16, 8192, 256]⟩

abbrev nBuf : Space → Nat
  | .hbm => 9
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S16, .i32⟩
  | .hbm, ⟨2, _⟩ => ⟨S16x256x256, .f32⟩
  | .hbm, ⟨3, _⟩ => ⟨S16x1x256, .f32⟩
  | .hbm, ⟨4, _⟩ => ⟨S16x8192x256, .f32⟩
  | .hbm, ⟨5, _⟩ => ⟨S16x8192x256, .f32⟩
  | .hbm, ⟨6, _⟩ => ⟨S16x8192x256, .f32⟩
  | .hbm, ⟨7, _⟩ => ⟨S16x8192x256, .f32⟩
  | .hbm, ⟨8, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  shapeCasts_S131072x256_S16x8192x256 : S131072x256.ShapeCasts S16x8192x256
  bcast_S16x1x256_S16x8192x256_0_1_2 : S16x1x256.BroadcastsInDim S16x8192x256 (![0, 1, 2] : Fin 3 → Fin S16x8192x256.rank)
  shapeCasts_S16x8192x256_S131072x256 : S16x8192x256.ShapeCasts S131072x256
  dot_S16x8192x256_S16x256x256_S16x8192x256_2_2_1_1_0_0_wf : DotDims.WF S16x8192x256 S16x256x256 S16x8192x256 [2] [2] [1] [1] [0] [0]

variable [Facts₀]

def dot_S16x8192x256_S16x256x256_S16x8192x256_2_2_1_1_0_0 : DotDims S16x8192x256 S16x256x256 S16x8192x256 where
  lhsContracting := [2]
  rhsContracting := [2]
  lhsNonContracting := [1]
  rhsNonContracting := [1]
  lhsBatch := [0]
  rhsBatch := [0]
  wf := dot_S16x8192x256_S16x256x256_S16x8192x256_2_2_1_1_0_0_wf

class Facts : Prop extends Facts₀ where

variable [Facts]
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.Payload.lean ====
/-
  What one grid point computes. The body loads a slab of 4096 points of one group, that group's weight matrix and its
  bias row, multiplies the slab by the transposed weights (the contraction runs over the 256 features, the last axis of
  both operands), and adds the bias row to every row of the product. Read at row `p`, column `q` of the stored block:

      (Σ_k slab[0, p, k] · weights[0, q, k]) + bias[0, 0, q].

  The rounding of the slab to a narrower format is the identity on the extended reals; the leading unit axes of the
  loaded blocks are dropped before, and put back after, the arithmetic.
-/
import proofs.«151343_j76802605187186_2_alg».proof.Proof.Gen.KernelIdeal.Skeleton
import proofs.«151343_j76802605187186_2_alg».proof.Proof.LibMatmul2
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The stored block at `(u, p, q)`: row `p` of the slab against row `q` of the weights, plus the bias at `q`. -/
theorem pay_apply (x0 : Vec Ideal S1x4096x256 .f32) (x1 : Vec Ideal S1x256x256 .bf16) (x2 : Vec Ideal S1x1x256 .f32)
    (u : Fin 1) (p : Fin 4096) (q : Fin 256) :
    k0_pay1 (F := Ideal) x0 x1 x2 (ix3 u p q)
      = (∑ k : Fin 256, x0 (ix3 (0 : Fin 1) p k) * x1 (ix3 (0 : Fin 1) q k)) + x2 (ix3 (0 : Fin 1) (0 : Fin 1) q) := by
  unfold k0_pay1
  refine (shapeCast_ab_1ab_apply _ shapeCasts_S4096x256_S1x4096x256 u p q).trans ?_
  refine (addf_apply _ _ (ix2 p q)).trans ?_
  refine congrArg₂ (· + ·) ?_ ?_
  · refine (LibMatmul2.matmul_nt_apply dot_S4096x256_S256x256_S4096x256_1_1_0_0_n_n_wf none _ _ p q).trans ?_
    refine Finset.sum_congr rfl fun k _ => ?_
    refine congrArg₂ (· * ·) ?_ ?_
    · exact (truncf_apply (ψ := .bf16) (shapeCast S4096x256 x0 shapeCasts_S1x4096x256_S4096x256) bitsLt_bf16_f32 (ix2 p k)).trans
        (shapeCast_1ab_ab_apply x0 shapeCasts_S1x4096x256_S4096x256 p k)
    · exact shapeCast_1ab_ab_apply x1 shapeCasts_S1x256x256_S256x256 q k
  · refine (broadcastTo_1b_ab_apply _ broadcasts_S1x256_S4096x256 p q).trans ?_
    exact shapeCast_1ab_ab_apply x2 shapeCasts_S1x1x256_S1x256 (0 : Fin 1) q

end Cert.KernelIdeal.Body

end
-- ==== Proof.Spec.lean ====
/-
  A grouped linear layer over sixteen groups of 8192 points. A point is a row of 256 numbers; group `n` has its own
  256 × 256 weight matrix, stored output-major (`w[n, o, k]`), and its own bias row `b[n, 0, o]`. Entry `(n, g, o)` of
  the result is the inner product of point `g` of group `n` with row `o` of that group's weight matrix, plus the
  group's bias at `o`:

      out[n, g, o] = (Σ_k x[n, g, k] · w[n, o, k]) + b[n, 0, o],

  over the extended reals. The points arrive as a flat 131072 × 256 array whose consecutive runs of 8192 rows are the
  groups, and the result leaves in the same flat layout: `result` is `out` between the two re-layouts.
-/
import Idealize.ShloMosaic.PureOps.Ideal
import Idealize.ShloMosaic.Lib.ValueIdx

noncomputable section

namespace GroupedLinear

open Idealize.ShloMosaic Idealize.ShloMosaic.ValueIdx

/-- One entry: point `g` of group `n` against row `o` of the group's weights, plus the group's bias at `o`. -/
def entry (xg : (⟨3, ![16, 8192, 256]⟩ : Shape).Idx → EReal) (w : (⟨3, ![16, 256, 256]⟩ : Shape).Idx → EReal)
    (b : (⟨3, ![16, 1, 256]⟩ : Shape).Idx → EReal) (n : Fin 16) (g : Fin 8192) (o : Fin 256) : EReal :=
  (∑ k : Fin 256, xg (ix3 n g k) * w (ix3 n o k)) + b (ix3 n (0 : Fin 1) o)

/-- The grouped result as one array over (group, point, output feature). -/
def out (xg : (⟨3, ![16, 8192, 256]⟩ : Shape).Idx → EReal) (w : (⟨3, ![16, 256, 256]⟩ : Shape).Idx → EReal)
    (b : (⟨3, ![16, 1, 256]⟩ : Shape).Idx → EReal) : (⟨3, ![16, 8192, 256]⟩ : Shape).Idx → EReal :=
  fun i => entry xg w b (i 0) (i 1) (i 2)

theorem out_ix3 (xg : (⟨3, ![16, 8192, 256]⟩ : Shape).Idx → EReal) (w : (⟨3, ![16, 256, 256]⟩ : Shape).Idx → EReal)
    (b : (⟨3, ![16, 1, 256]⟩ : Shape).Idx → EReal) (n : Fin 16) (g : Fin 8192) (o : Fin 256) :
    out xg w b (ix3 n g o) = entry xg w b n g o := rfl

/-- The flat points grouped, the grouped layer, the result flattened again. -/
def result (x : (⟨2, ![131072, 256]⟩ : Shape).Idx → EReal) (w : (⟨3, ![16, 256, 256]⟩ : Shape).Idx → EReal)
    (b : (⟨3, ![16, 1, 256]⟩ : Shape).Idx → EReal)
    (hin : (⟨2, ![131072, 256]⟩ : Shape).ShapeCasts ⟨3, ![16, 8192, 256]⟩)
    (hout : (⟨3, ![16, 8192, 256]⟩ : Shape).ShapeCasts ⟨2, ![131072, 256]⟩) : (⟨2, ![131072, 256]⟩ : Shape).Idx → EReal :=
  shapeCast ⟨2, ![131072, 256]⟩ (out (shapeCast ⟨3, ![16, 8192, 256]⟩ x hin) w b) hout

end GroupedLinear

end
-- ==== Proof.KernelValue.lean ====
/-
  What the kernel's program leaves in its result, at the ideal values.

  Before the grid runs, the host groups the flat points into sixteen groups of 8192 rows and rounds the weights to a
  narrower format (the identity on the extended reals). Grid point `(n, h)` then handles rows `4096·h … 4096·h + 4095` of
  group `n`: its slab block is those rows, its weight block is group `n`'s whole matrix, its bias block group `n`'s row,
  and it writes back rows `4096·h …` of group `n` of the grouped result. So each written block is a block of ONE array,
  `GroupedLinear.out` of the grouped points, the weights and the bias; the 16 × 2 blocks tile the grouped result, which
  therefore IS that array; and the host's final flattening makes the program's result `GroupedLinear.result`.
-/
import proofs.«151343_j76802605187186_2_alg».proof.Proof.Gen.KernelIdeal.Frame
import proofs.«151343_j76802605187186_2_alg».proof.Proof.Payload
import proofs.«151343_j76802605187186_2_alg».proof.Proof.Spec
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## One grid point: the stored block is a block of the grouped layer -/

/-- If the slab block's row `p` is row `g` of group `n` of the grouped points `X`, the weight block's row `q` is row `o`
    of group `n`'s weights in `W`, and the bias block's entry `q` is group `n`'s bias at `o` in `B`, then the stored block
    at `(u, p, q)` is the grouped layer of `X`, `W`, `B` at `(n, g, o)`. -/
theorem point_eq (X : S16x8192x256.Idx → EReal) (W : S16x256x256.Idx → EReal) (B : S16x1x256.Idx → EReal)
    (x0 : Vec Ideal S1x4096x256 .f32) (x1 : Vec Ideal S1x256x256 .bf16) (x2 : Vec Ideal S1x1x256 .f32)
    (j : S1x4096x256.Idx) (i : S16x8192x256.Idx)
    (e0 : ∀ k : Fin 256, x0 (ix3 (0 : Fin 1) (j 1) k) = X (ix3 (i 0) (i 1) k))
    (e1 : ∀ k : Fin 256, x1 (ix3 (0 : Fin 1) (j 2) k) = W (ix3 (i 0) (i 2) k))
    (e2 : x2 (ix3 (0 : Fin 1) (0 : Fin 1) (j 2)) = B (ix3 (i 0) (0 : Fin 1) (i 2))) :
    k0_pay1 (F := Ideal) x0 x1 x2 j = GroupedLinear.out X W B i := by
  obtain ⟨u, p, q, rfl⟩ : ∃ (u : Fin 1) (p : Fin 4096) (q : Fin 256), j = ix3 u p q := ⟨j 0, j 1, j 2, eq_ix3 j⟩
  obtain ⟨n, g, o, rfl⟩ : ∃ (n : Fin 16) (g : Fin 8192) (o : Fin 256), i = ix3 n g o := ⟨i 0, i 1, i 2, eq_ix3 i⟩
  rw [Body.pay_apply, GroupedLinear.out_ix3]
  unfold GroupedLinear.entry
  refine congrArg₂ (· + ·) (Finset.sum_congr rfl fun k _ => congrArg₂ (· * ·) (e0 k) (e1 k)) e2

/-! ## The arrays the grid finds -/

/-- The grouped points: the flat points re-laid as sixteen groups of 8192 rows. -/
theorem V_points (c : Dev nD) : (V m c main_v0 : S16x8192x256.Idx → EReal)
    = shapeCast S16x8192x256 (m ((c : Thread nD τ).loc main_arg0)) shapeCasts_S131072x256_S16x8192x256 := by
  show StableHlo.after hostOps0 (fun b => m (c, b)) (Proc.devRef .tc main_v0) = _
  after_results
  rfl

/-- The weights the grid reads: the weights as launched (rounding is the identity on the extended reals). -/
theorem V_weights (c : Dev nD) : (V m c main_v1 : S16x256x256.Idx → EReal) = m ((c : Thread nD τ).loc main_arg2) := by
  show StableHlo.after hostOps0 (fun b => m (c, b)) (Proc.devRef .tc main_v1) = _
  after_results
  rfl

/-! ## Which block each window holds at a grid point -/

/-- Over the 32 grid points: the slab and the written block sit at the same (group, half); the weight and bias blocks
    at the same group, and at block 0 of their other axes; no window moves along the feature axis. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 :=
  (by decide +kernel : ∀ t : Fin grid0.N, _)

/-- Every (group, half) is some grid point's written block. -/
theorem idx_onto : ∀ (q0 : Fin 16) (q1 : Fin 2), ∃ t : Fin cfg0.N, win0_3.index t = ![q0.val, q1.val, 0] :=
  (by decide +kernel : ∀ (q0 : Fin 16) (q1 : Fin 2), ∃ t : Fin grid0.N, win0_3.index t = ![q0.val, q1.val, 0])

/-! ## What a grid point writes back -/

/-- The grouped result: the grouped layer of the arrays the grid finds. -/
abbrev G (c : Dev nD) : S16x8192x256.Idx → EReal :=
  GroupedLinear.out (V m c main_v0) (V m c main_v1) (V m c main_arg3)

/-- Grid point `t` writes back block `t` of the grouped result. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S1x4096x256) hz, View.ld_unit_zero (S := S1x256x256) hz, View.ld_unit_zero (S := S1x1x256) hz]
  obtain ⟨a0, a1, a2, b0, b1, b2, c0, c1, c2, d2⟩ := idx_facts t
  funext j
  show k0_pay1 (F := Ideal) (iblk m c 0 t) (iblk m c 1 t) (iblk m c 2 t) j = G m c (((cfg0.win 3).blk t).view.emb j)
  have hj0 : (j 0).val < 1 := (j 0).isLt
  have hj1 : (j 1).val < 4096 := (j 1).isLt
  have hj2 : (j 2).val < 256 := (j 2).isLt
  refine point_eq (V m c main_v0) (V m c main_v1) (V m c main_arg3) (iblk m c 0 t) (iblk m c 1 t) (iblk m c 2 t) j
    (((cfg0.win 3).blk t).view.emb j) (fun k => ?_) (fun k => ?_) ?_
  · show V m c main_v0 (((cfg0.win 0).blk t).view.emb (ix3 (0 : Fin 1) (j 1) k)) = V m c main_v0 _
    refine congrArg (V m c main_v0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 4096 + 1 * (j 1).val = win0_3.index t (1 : Fin 3) * 4096 + 1 * (j 1).val; omega
    | ⟨2, _⟩ => show win0_0.index t (2 : Fin 3) * 256 + 1 * k.val = k.val; omega
  · show V m c main_v1 (((cfg0.win 1).blk t).view.emb (ix3 (0 : Fin 1) (j 2) k)) = V m c main_v1 _
    refine congrArg (V m c main_v1) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 256 + 1 * (j 2).val = win0_3.index t (2 : Fin 3) * 256 + 1 * (j 2).val; omega
    | ⟨2, _⟩ => show win0_1.index t (2 : Fin 3) * 256 + 1 * k.val = k.val; omega
  · show V m c main_arg3 (((cfg0.win 2).blk t).view.emb (ix3 (0 : Fin 1) (0 : Fin 1) (j 2))) = V m c main_arg3 _
    refine congrArg (V m c main_arg3) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 1 + 1 * 0 = 0; omega
    | ⟨2, _⟩ => show win0_2.index t (2 : Fin 3) * 256 + 1 * (j 2).val = win0_3.index t (2 : Fin 3) * 256 + 1 * (j 2).val; omega

/-! ## The written blocks tile the grouped result -/

/-- An index of the grouped result is in point `t`'s block iff each coordinate is in the block's range on its axis. -/
theorem mem_blk (t : Fin cfg0.N) (i : S16x8192x256.Idx) :
    i ∈ ((cfg0.win 3).blk t).view.set ↔ ∀ a : Fin 3, win0_3.index t a * S1x4096x256.size a ≤ (i a).val
      ∧ (i a).val < win0_3.index t a * S1x4096x256.size a + S1x4096x256.size a := by
  show i ∈ ((View.whole main_v2).slice (win0_3.rect t)).set ↔ _
  rw [View.set_slice_whole, Rect.mem_set_unit]
  exact Iff.rfl

/-- Entry `(n, g, o)` is in the block written at group `n`, half `g / 4096`. -/
theorem cover (i : S16x8192x256.Idx) :
    ∃ t : Fin cfg0.N, (cfg0.win 3).flush t = true ∧ i ∈ ((cfg0.win 3).blk t).view.set := by
  have h0 : (i 0).val < 16 := (i 0).isLt
  have h1 : (i 1).val < 8192 := (i 1).isLt
  have h2 : (i 2).val < 256 := (i 2).isLt
  obtain ⟨t, ht⟩ := idx_onto ⟨(i 0).val, h0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 256 ≤ (i 2).val ∧ (i 2).val < win0_3.index t (2 : Fin 3) * 256 + 256; omega

/-- The grouped result after the grid is the grouped layer of the arrays the grid found. -/
theorem final (c : Dev nD) : (dats m 0 c).arrAt 3 cfg0.N = G m c :=
  (dats m 0 c).arrAt_eq_of_cover 3 (G m c) (fun t _ => flushed_eq m c t) cover

/-! ## The host's final flattening, and the run -/

/-- The program's result: the grouped result flattened back to 131072 rows. -/
theorem tail_eq (c : Dev nD) : Pipeline.afterTail₀ cfgs (dats m) 0 (V0 m) [hostOps1] c main_v3
    = shapeCast S131072x256 (G m c) shapeCasts_S16x8192x256_S131072x256 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = G m c := (Pipeline.withArrays_arr spec0 launch0.win.arr_inj c _ _ 3).trans (final m c)
  rw [e]
  rfl

/-- Every weakly fair execution of the kernel's program ends with its result at the grouped linear layer of the
    launched points, weights and bias, and with the four arguments as launched. -/
theorem run : θ_run defs (onTc (τ := τ) (main (F := Ideal))) ⟨m, fun _ => 0, ρ⟩ fun r => ∀ c : Dev nD,
      r.2.mem ((c.tc : Thread nD τ).loc main_v3)
        = GroupedLinear.result (m ((c.tc : Thread nD τ).loc main_arg0)) (m ((c.tc : Thread nD τ).loc main_arg2))
            (m ((c.tc : Thread nD τ).loc main_arg3)) shapeCasts_S131072x256_S16x8192x256 shapeCasts_S16x8192x256_S131072x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans ((tail_eq m c).trans (by
        unfold G GroupedLinear.result
        rw [V_points, V_weights, V_main_arg3])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.KValue

end
-- ==== Proof.RefIsSpec.lean ====
/-
  The reference computes the grouped linear layer: its batched contraction over the feature axis of the grouped points
  against each group's weight matrix, with the bias row broadcast over the group's points, is `GroupedLinear.out` entry
  by entry — the same sum over the 256 features, the same bias entry — and its two reshapes are the two re-layouts of
  `GroupedLinear.result`.
-/
import proofs.«151343_j76802605187186_2_alg».proof.Proof.Gen.ReferenceIdeal.Read
import proofs.«151343_j76802605187186_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The left operand of the contraction at output `(n, g, o)` and feature `k` is the grouped points at `(n, g, k)`. -/
theorem lidx_eq (i : S16x8192x256.Idx) (k : Fin 256) : lidx_main_v1 i k = ix3 (i 0) (i 1) k :=
  funext fun a => Fin.ext (by match a with | ⟨0, _⟩ => rfl | ⟨1, _⟩ => rfl | ⟨2, _⟩ => rfl)

/-- The right operand there is the weights at `(n, o, k)`. -/
theorem ridx_eq (i : S16x8192x256.Idx) (k : Fin 256) : ridx_main_v1 i k = ix3 (i 0) (i 2) k :=
  funext fun a => Fin.ext (by match a with | ⟨0, _⟩ => rfl | ⟨1, _⟩ => rfl | ⟨2, _⟩ => rfl)

/-- The broadcast bias at `(n, g, o)` is the bias at `(n, 0, o)`. -/
theorem bidx_eq (i : S16x8192x256.Idx) : idx_main_v2 i = ix3 (i 0) (0 : Fin 1) (i 2) :=
  funext fun a => Fin.ext (by match a with | ⟨0, _⟩ => rfl | ⟨1, _⟩ => rfl | ⟨2, _⟩ => rfl)

/-- The contraction plus the broadcast bias is the grouped layer of the grouped points. -/
theorem grouped_eq (x0 : (⟨S131072x256, .f32⟩ : BufTy).Contents (Elt Ideal)) (x2 : (⟨S16x256x256, .f32⟩ : BufTy).Contents (Elt Ideal))
    (x3 : (⟨S16x1x256, .f32⟩ : BufTy).Contents (Elt Ideal)) :
    val_main_v3 (F := Ideal) x0 x2 x3 = GroupedLinear.out (val_main_v0 (F := Ideal) x0) x2 x3 := by
  funext i
  rw [val_main_v3_apply, val_main_v1_apply, val_main_v2_apply]
  simp only [lidx_eq, ridx_eq, bidx_eq, GroupedLinear.out, GroupedLinear.entry]
  rfl

/-- The reference's result is `GroupedLinear.result` of its three float arguments. -/
theorem result_eq (x0 : (⟨S131072x256, .f32⟩ : BufTy).Contents (Elt Ideal)) (x2 : (⟨S16x256x256, .f32⟩ : BufTy).Contents (Elt Ideal))
    (x3 : (⟨S16x1x256, .f32⟩ : BufTy).Contents (Elt Ideal)) :
    val_main_v4 (F := Ideal) x0 x2 x3
      = GroupedLinear.result x0 x2 x3 shapeCasts_S131072x256_S16x8192x256 shapeCasts_S16x8192x256_S131072x256 := by
  unfold val_main_v4 GroupedLinear.result
  rw [grouped_eq]
  rfl

end Cert.ReferenceIdeal.RefValue

end
-- ==== Proof.lean ====
/-
  A grouped linear layer: 131072 points of 256 features, in sixteen consecutive groups of 8192; group `n` is multiplied
  by the transpose of its own 256 × 256 weight matrix and shifted by its own bias row.

  The kernel's program groups the points, rounds the weights to a narrower format, runs a 16 × 2 grid whose point
  `(n, h)` multiplies a slab of 4096 points of group `n` by the transposed weights of group `n` and adds the bias row, and
  flattens the grouped result. The reference groups the points, contracts them against the weights group by group over
  the feature axis, adds the broadcast bias, and flattens. On the extended reals rounding is the identity and each
  entry is on both sides the same sum over the 256 features of the same products plus the same bias entry
  (`GroupedLinear.entry`), so the two results are one array, `GroupedLinear.result` of the launched points, weights and
  bias. No law beyond reading both sides entry by entry is needed, and the finiteness of the inputs is not used.

  The kernel's side is Proof/KernelValue.lean over Proof/Payload.lean (one grid point's arithmetic), the reference's
  side Proof/RefIsSpec.lean, the common array Proof/Spec.lean. The idealization rewrote nothing, so the kernel's
  idealized program is its own text read at the ideal values and there is nothing to preserve.
-/
import proofs.«151343_j76802605187186_2_alg».proof.Defs
import proofs.«151343_j76802605187186_2_alg».proof.Proof.Gen.Kernel
import proofs.«151343_j76802605187186_2_alg».proof.Proof.Gen.Kernel.Skeleton
import proofs.«151343_j76802605187186_2_alg».proof.Proof.Gen.Kernel.Launch
import proofs.«151343_j76802605187186_2_alg».proof.Proof.Gen.Kernel.Points
import proofs.«151343_j76802605187186_2_alg».proof.Proof.Gen.Kernel.Frame
import proofs.«151343_j76802605187186_2_alg».proof.Proof.Gen.KernelIdeal
import proofs.«151343_j76802605187186_2_alg».proof.Proof.Gen.KernelIdeal.Skeleton
import proofs.«151343_j76802605187186_2_alg».proof.Proof.Gen.KernelIdeal.Launch
import proofs.«151343_j76802605187186_2_alg».proof.Proof.Gen.KernelIdeal.Points
import proofs.«151343_j76802605187186_2_alg».proof.Proof.Gen.KernelIdeal.Frame
import proofs.«151343_j76802605187186_2_alg».proof.Proof.Gen.ReferenceIdeal
import proofs.«151343_j76802605187186_2_alg».proof.Proof.Gen.Pre_finite_inputs
import proofs.«151343_j76802605187186_2_alg».proof.Proof.Gen.ReferenceIdeal.Run
import proofs.«151343_j76802605187186_2_alg».proof.Proof.Gen.ReferenceIdeal.Read
import proofs.«151343_j76802605187186_2_alg».proof.Proof.KernelValue
import proofs.«151343_j76802605187186_2_alg».proof.Proof.RefIsSpec
import Idealize.ShloMosaic.Adequacy
import Idealize.ShloMosaic.Init

noncomputable section

namespace Cert.Proof

open Idealize.ShloMosaic Idealize.SL.Sem Cert.Kernel

/-- The kernel's program, as printed, runs and leaves its arguments as launched. -/
theorem frame_kernel : Cert.frame_Kernel := fun m ρ _ => Cert.Kernel.Gen.frame m ρ

/-- So does its idealized program. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result at `GroupedLinear.result` of the launched points, weights and bias;
    the two memories agree on those, so the results are equal. -/
theorem algebraic : Cert.algebraic_KernelIdeal_ReferenceIdeal := by
  intro m ρ m' ρ' _ hagree
  refine ⟨fun c => GroupedLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      Cert.KernelIdeal.Facts₀.shapeCasts_S131072x256_S16x8192x256 Cert.KernelIdeal.Facts₀.shapeCasts_S16x8192x256_S131072x256,
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
